-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S128x128 : Shape := ⟨2, ![128, 128]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  main_v18

def fn {F : FTy → Type} [FloatOps F] (main_arg0 : FVec F S4x2048x4096 .f32) (main_arg1 : FVec F S4096x4096 .f32) (main_arg2 : FVec F S4096 .f32) (main_arg3 : FVec F S128x128 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_v13 main_v16
-- ==== Kernel.lean ====
abbrev S4x2048x4096 : Shape := ⟨3, ![4, 2048, 4096]⟩
abbrev S4096x4096 : Shape := ⟨2, ![4096, 4096]⟩
abbrev S4096 : Shape := ⟨1, ![4096]⟩
abbrev S128x128 : Shape := ⟨2, ![128, 128]⟩
abbrev S8192x4096 : Shape := ⟨2, ![8192, 4096]⟩
abbrev S1x4096 : Shape := ⟨2, ![1, 4096]⟩
abbrev S512x4096 : Shape := ⟨2, ![512, 4096]⟩
abbrev S16x128 : Shape := ⟨2, ![16, 128]⟩
abbrev S16x1x128x1 : Shape := ⟨4, ![16, 1, 128, 1]⟩
abbrev S16x32x128x32 : Shape := ⟨4, ![16, 32, 128, 32]⟩
abbrev S2048x512 : Shape := ⟨2, ![2048, 512]⟩
abbrev S1024x512 : Shape := ⟨2, ![1024, 512]⟩
abbrev S1x1024 : Shape := ⟨2, ![1, 1024]⟩
abbrev S2048x1024 : Shape := ⟨2, ![2048, 1024]⟩

abbrev nBuf : Space → Nat
  | .hbm => 10
  | .vmem => 13
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S128x128, .f32⟩
  | .hbm, ⟨4, _⟩ => ⟨S8192x4096, .f32⟩
  | .hbm, ⟨5, _⟩ => ⟨S8192x4096, .bf16⟩
  | .hbm, ⟨6, _⟩ => ⟨S1x4096, .f32⟩
  | .hbm, ⟨7, _⟩ => ⟨S4096x4096, .bf16⟩
  | .hbm, ⟨8, _⟩ => ⟨S8192x4096, .f32⟩
  | .hbm, ⟨9, _⟩ => ⟨S4x2048x4096, .f32⟩
  | .local _ .vmem, ⟨0, _⟩ => ⟨S512x4096, .f32⟩
  | .local _ .vmem, ⟨1, _⟩ => ⟨S512x4096, .f32⟩
  | .local _ .vmem, ⟨2, _⟩ => ⟨S128x128, .f32⟩
  | .local _ .vmem, ⟨3, _⟩ => ⟨S512x4096, .bf16⟩
  | .local _ .vmem, ⟨4, _⟩ => ⟨S512x4096, .bf16⟩
  | .local _ .vmem, ⟨5, _⟩ => ⟨S2048x512, .bf16⟩
  | .local _ .vmem, ⟨6, _⟩ => ⟨S2048x512, .bf16⟩
  | .local _ .vmem, ⟨7, _⟩ => ⟨S1024x512, .bf16⟩
  | .local _ .vmem, ⟨8, _⟩ => ⟨S1024x512, .bf16⟩
  | .local _ .vmem, ⟨9, _⟩ => ⟨S1x1024, .f32⟩
  | .local _ .vmem, ⟨10, _⟩ => ⟨S1x1024, .f32⟩
  | .local _ .vmem, ⟨11, _⟩ => ⟨S2048x1024, .f32⟩
  | .local _ .vmem, ⟨12, _⟩ => ⟨S2048x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨1, ![8], ![false]⟩

def k0_mult1 (i : grid0.Coords) : BitVec 32 :=
  let arg0 : BitVec 32 := BitVec.ofNat 32 (i 0).val
  let c16_i32 : BitVec 32 := 16#32
  let v0 : BitVec 32 := Scalar.muli arg0 c16_i32
  v0
def k0_off1 (i : grid0.Coords) : Fin 2 → Nat :=
  let arg0 : BitVec 32 := BitVec.ofNat 32 (i 0).val
  let c16_i32 : BitVec 32 := 16#32
  let v0 : BitVec 32 := Scalar.muli arg0 c16_i32
  let v1 : BitVec 32 := v0
  let v2 : Index := Scalar.indexCast v1
  let c0 : Index := 0#32
  ![v2.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![4, 4, 8], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S2048x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S2048x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  shapeCasts_S4x2048x4096_S8192x4096 : S4x2048x4096.ShapeCasts S8192x4096
  bitsLt_bf16_f32 : FTy.bits .bf16 < FTy.bits .f32
  shapeCasts_S4096_S1x4096 : S4096.ShapeCasts S1x4096
  h_S16x128 : 0 < S16x128.numel
  natLt_1_32 : 1 < 32
  shapeCasts_S16x128_S16x1x128x1 : S16x128.ShapeCasts S16x1x128x1
  shapeCasts_S16x1x128x1_S16x1x128x1 : S16x1x128x1.ShapeCasts S16x1x128x1
  broadcasts_S16x1x128x1_S16x32x128x32 : S16x1x128x1.Broadcasts S16x32x128x32
  shapeCasts_S16x32x128x32_S512x4096 : S16x32x128x32.ShapeCasts S512x4096
  inb_S512x4096_S512x4096_0_0 : ∀ a, (![0, 0] : Fin 2 → Nat) a + S512x4096.size a ≤ S512x4096.size a
  h_S512x4096 : 0 < S512x4096.numel
  packedbf16_S512x4096_S512x4096_0_0 : (Rect.unit (s := S512x4096) ![0, 0] S512x4096.size inb_S512x4096_S512x4096_0_0).PackedRows (EltTy.packing .bf16)
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  shapeCasts_S8192x4096_S4x2048x4096 : S8192x4096.ShapeCasts S4x2048x4096
  dot_S2048x512_S1024x512_S2048x1024_1_1_0_0_n_n_wf : DotDims.WF S2048x512 S1024x512 S2048x1024 [1] [1] [0] [0] [] []
  hrank0 : 0 < grid0.rank
  k0_mult1_dvd : ∀ i : grid0.Coords, 16 ∣ (k0_mult1 i).toNat
  k0_off1_inb : ∀ i : grid0.Coords, ∀ a, (k0_off1 i) a + S16x128.size a ≤ S128x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .f32 = 32 ∨ (Rect.block (s := S4096x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x4096.size a ≤ S4096x4096.size a
  hwx0_2 : ∀ i : grid0.Coords, EltTy.bits .bf16 = 32 ∨ (Rect.block (s := S4096x4096) S512x4096.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x512.size a ≤ S8192x4096.size a
  hwx1_0 : ∀ i : grid1.Coords, EltTy.bits .bf16 = 32 ∨ (Rect.block (s := S8192x4096) S2048x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S4096x4096.size a
  hwx1_1 : ∀ i : grid1.Coords, EltTy.bits .bf16 = 32 ∨ (Rect.block (s := S4096x4096) S1024x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x4096.size a
  hwx1_2 : ∀ i : grid1.Coords, EltTy.bits .f32 = 32 ∨ (Rect.block (s := S1x4096) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x1024.size a ≤ S8192x4096.size a
  hwx1_3 : ∀ i : grid1.Coords, EltTy.bits .f32 = 32 ∨ (Rect.block (s := S8192x4096) S2048x1024.size (cc1_transform_3 i) (hinb1_3 i)).WholeWords (EltTy.packing .f32)

variable [Facts₀]

def dot_S2048x512_S1024x512_S2048x1024_1_1_0_0_n_n : DotDims S2048x512 S1024x512 S2048x1024 where
  lhsContracting := [1]
  rhsContracting := [1]
  lhsNonContracting := [0]
  rhsNonContracting := [0]
  lhsBatch := []
  rhsBatch := []
  wf := dot_S2048x512_S1024x512_S2048x1024_1_1_0_0_n_n_wf

abbrev win0_0 : Pipeline.Window sig grid0 :=
  Pipeline.Window.ofSpec (Memref.whole main_arg1) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S512x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v1) S2048x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1024x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S2048x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S128x128 : Shape := ⟨2, ![128, 128]⟩
abbrev S_ : Shape := ⟨0, ![]⟩
abbrev S128x32x128 : Shape := ⟨3, ![128, 32, 128]⟩
abbrev S4096x128 : Shape := ⟨2, ![4096, 128]⟩
abbrev S4096x128x32 : Shape := ⟨3, ![4096, 128, 32]⟩
abbrev S1x1x4096 : Shape := ⟨3, ![1, 1, 4096]⟩

abbrev nBuf : Space → Nat
  | .hbm => 25
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S_, .f32⟩
  | .hbm, ⟨7, _⟩ => ⟨S128x128, .f32⟩
  | .hbm, ⟨8, _⟩ => ⟨S128x128, .f32⟩
  | .hbm, ⟨9, _⟩ => ⟨S_, .f32⟩
  | .hbm, ⟨10, _⟩ => ⟨S128x128, .f32⟩
  | .hbm, ⟨11, _⟩ => ⟨S128x128, .f32⟩
  | .hbm, ⟨12, _⟩ => ⟨S_, .f32⟩
  | .hbm, ⟨13, _⟩ => ⟨S128x128, .f32⟩
  | .hbm, ⟨14, _⟩ => ⟨S128x128, .i1⟩
  | .hbm, ⟨15, _⟩ => ⟨S128x128, .f32⟩
  | .hbm, ⟨16, _⟩ => ⟨S128x32x128, .f32⟩
  | .hbm, ⟨17, _⟩ => ⟨S4096x128, .f32⟩
  | .hbm, ⟨18, _⟩ => ⟨S4096x128x32, .f32⟩
  | .hbm, ⟨19, _⟩ => ⟨S4096x4096, .f32⟩
  | .hbm, ⟨20, _⟩ => ⟨S4096x4096, .f32⟩
  | .hbm, ⟨21, _⟩ => ⟨S4x2048x4096, .f32⟩
  | .hbm, ⟨22, _⟩ => ⟨S1x1x4096, .f32⟩
  | .hbm, ⟨23, _⟩ => ⟨S4x2048x4096, .f32⟩
  | .hbm, ⟨24, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  bcast_S_S128x128 : S_.BroadcastsInDim S128x128 (![] : Fin 0 → Fin S128x128.rank)
  bcast_S128x128_S128x32x128_0_2 : S128x128.BroadcastsInDim S128x32x128 (![0, 2] : Fin 2 → Fin S128x32x128.rank)
  shapeCasts_S128x32x128_S4096x128 : S128x32x128.ShapeCasts S4096x128
  bcast_S4096x128_S4096x128x32_0_1 : S4096x128.BroadcastsInDim S4096x128x32 (![0, 1] : Fin 2 → Fin S4096x128x32.rank)
  shapeCasts_S4096x128x32_S4096x4096 : S4096x128x32.ShapeCasts S4096x4096
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.LibSumRuns.lean ====
/-
  Sums taken in runs.

  A sum of `a · b` consecutive terms `f 0, f 1, …` is the sum of its `a` runs of `b` terms, run `d` being
  `f (b · d), …, f (b · d + b − 1)` — in any commutative monoid, so also on the extended reals, where it says that a
  contraction accumulated block by block is the whole contraction. Stated over `Finset.range` and, for a contraction
  index that is a `Fin`, with the inner and the whole sum over `Fin b` and `Fin (a · b)`.
-/
import Idealize.ShloMosaic.PureOps.Ideal

namespace Cert.LibSumRuns

/-- A sum over `a · b` consecutive naturals, taken in `a` runs of `b`. -/
theorem sum_range_mul {M : Type*} [AddCommMonoid M] (f : ℕ → M) (a b : ℕ) :
    ∑ d ∈ Finset.range a, ∑ l ∈ Finset.range b, f (b * d + l) = ∑ k ∈ Finset.range (a * b), f k := by
  induction a with
  | zero => simp
  | succ a ih =>
    rw [Finset.sum_range_succ, ih, Nat.succ_mul, Finset.sum_range_add, Nat.mul_comm b a]

/-- The same with each run indexed by `Fin b` and the whole sum by `Fin (a · b)`. -/
theorem sum_fin_runs {M : Type*} [AddCommMonoid M] (f : ℕ → M) (a b : ℕ) :
    ∑ d ∈ Finset.range a, ∑ l : Fin b, f (b * d + l.val) = ∑ k : Fin (a * b), f k.val := by
  rw [Fin.sum_univ_eq_sum_range (fun k => f k) (a * b), ← sum_range_mul f a b]
  refine Finset.sum_congr rfl fun d _ => ?_
  exact Fin.sum_univ_eq_sum_range (fun l => f (b * d + l)) b

end Cert.LibSumRuns
-- ==== Proof.LibSignedBit.lean ====
/-
  A test bit as a float, read signed or unsigned, over the extended reals.

  A bit widened with zeros to 32 bits and read as a signed integer is the bit read unsigned, `0` or `1`; so a mask
  spelt "widen the bit, convert the signed integer to a float" is the mask spelt "convert the bit, unsigned, to a float".
  And the f32 constant `1.0` (the word `0x3F800000`) is the real `1`.
-/
import Idealize.ShloMosaic.PureOps.Ideal
import Idealize.ShloMosaic.PureOps.Ideal.Laws

noncomputable section

namespace Cert.LibSignedBit

open Idealize.ShloMosaic

/-- A bit widened to 32 bits and read as a signed integer is the bit read unsigned: `0` or `1`. -/
theorem bit_signed_eq_unsigned : ∀ b : BitVec 1, (b.setWidth 32).toInt = (b.toNat : Int) := by decide

/-- The signed conversion of the widened bit is the unsigned conversion of the bit. -/
theorem sitofp_setWidth_bit (b : BitVec 1) :
    FloatOps.sitofp (F := Ideal) .f32 (b.setWidth 32) = FloatOps.uitofp (F := Ideal) .f32 b := by
  show (((b.setWidth 32).toInt : ℝ) : EReal) = ((b.toNat : ℝ) : EReal)
  rw [bit_signed_eq_unsigned b]
  simp

/-- The f32 constant one is the real `1`. -/
theorem ofBits_one_f32 : Ideal.ofBits .f32 0x3F800000#32 = (1 : EReal) := by
  simp [Ideal.ofBits, Ideal.ieee, -EReal.coe_mul]
  norm_num

end Cert.LibSignedBit

end
-- ==== Proof.Spec.lean ====
/-
  The specification: a linear layer whose weight is pruned in 32×32 tiles by a thresholded score.

  A score `s` keeps its tile when `sigmoid s > τ` (τ the f32 constant nearest one tenth); `keep s` is that test as a
  float, `1` or `0`. The pruned weight at `(n, k)` is `w (n, k) · keep (score (n / 32, k / 32))`, and the layer's result at
  `(b, s, o)` is `∑ₖ x (b, s, k) · pruned (o, k) + bias o` — all on the extended reals, where a sum may be regrouped
  freely (addition there is commutative and associative), so summing `k` in eight runs of 512 is the whole sum.
-/
import Idealize.ShloMosaic.PureOps.Ideal
import Idealize.ShloMosaic.PureOps.Ideal.Laws
import Idealize.ShloMosaic.Lib.ValueIdx
import proofs.«110593_j48344151883970_2_alg».proof.Proof.LibSumRuns
import proofs.«110593_j48344151883970_2_alg».proof.Proof.LibSignedBit

noncomputable section

namespace Cert.PrunedLinear

open Idealize.ShloMosaic Idealize.ShloMosaic.ValueIdx

abbrev SX : Shape := ⟨3, ![4, 2048, 4096]⟩
abbrev SW : Shape := ⟨2, ![4096, 4096]⟩
abbrev SB : Shape := ⟨1, ![4096]⟩
abbrev SS : Shape := ⟨2, ![128, 128]⟩

/-- The threshold test of one score, as a float: `1` when `sigmoid s` exceeds the threshold constant, else `0`. -/
def keep (s : Ideal .f32) : Ideal .f32 :=
  FloatOps.uitofp .f32 (FloatOps.cmpf .ogt (FloatOps.logistic s) (FloatOps.ofBits .f32 0x3DCCCCCD#32))

/-- The 32-wide tile a row or a column of the weight lies in. -/
def tile (n : Fin 4096) : Fin 128 := ⟨n.val / 32, by have := n.isLt; omega⟩

/-- The pruned weight: each entry times the test of its tile's score. -/
def pruned (w : FVec Ideal SW .f32) (sc : FVec Ideal SS .f32) : FVec Ideal SW .f32 :=
  fun i => w i * keep (sc (ix2 (tile (i 0)) (tile (i 1))))

/-- The layer's result: `x` against the pruned weight's rows, plus the bias. -/
def G (x : FVec Ideal SX .f32) (w : FVec Ideal SW .f32) (b : FVec Ideal SB .f32) (sc : FVec Ideal SS .f32) :
    FVec Ideal SX .f32 :=
  fun i => (∑ k : Fin 4096, x (ix3 (i 0) (i 1) k) * pruned w sc (ix2 (i 2) k)) + b (ix1 (i 2))

/-- The mask spelt "widen the test bit, convert signed" is the mask spelt "convert the test bit unsigned". -/
theorem sitofp_setWidth_bit (b : BitVec 1) :
    FloatOps.sitofp (F := Ideal) .f32 (b.setWidth 32) = FloatOps.uitofp (F := Ideal) .f32 b :=
  Cert.LibSignedBit.sitofp_setWidth_bit b

/-- The f32 constant one is the real `1`. -/
theorem ofBits_one_f32 : Ideal.ofBits .f32 0x3F800000#32 = (1 : EReal) := Cert.LibSignedBit.ofBits_one_f32

/-- Eight runs of 512 terms are the 4096 terms. -/
theorem sum_runs (f : ℕ → EReal) :
    ∑ d ∈ Finset.range 8, ∑ l : Fin 512, f (512 * d + l.val) = ∑ k : Fin 4096, f k.val :=
  Cert.LibSumRuns.sum_fin_runs f 8 512

end Cert.PrunedLinear

end
-- ==== Proof.RefValue.lean ====
/-
  The reference program computes the specification.

  Read at an index `(b, s, o)`, the reference's result is `∑ₖ x (b, s, k) · (w (o, k) · m (o, k)) + bias o`, where the
  mask `m` is the thresholded sigmoid of the 128×128 score table, spread to 4096×4096 by two repeat-and-flatten
  steps: first every score row is repeated 32 times (row `o` of the 4096×128 table is score row `o / 32`), then every
  entry 32 times along the columns (column `k` of the 4096×4096 mask is column `k / 32` of that table). So
  `m (o, k)` is the test of score `(o / 32, k / 32)`, which is the specification's pruned weight.
-/
import proofs.«110593_j48344151883970_2_alg».proof.Proof.Gen.ReferenceIdeal.Read
import proofs.«110593_j48344151883970_2_alg».proof.Proof.Spec

noncomputable section

namespace Cert.PrunedLinear.RefValue

open Idealize.ShloMosaic Idealize.ShloMosaic.ValueIdx Cert.ReferenceIdeal Cert.ReferenceIdeal.Read

/-- The 128×128 mask at a tile: the sigmoid spelt `1 / (1 + exp (-s))` is the logistic function, so the entry is
    `keep` of the score. -/
theorem mask_tile (x3 : FVec Ideal S128x128 .f32) (j : S128x128.Idx) :
    val_main_v8 (F := Ideal) x3 j = keep (x3 j) := by
  rw [val_main_v8_apply, val_main_v7_apply, val_main_v5_apply, val_main_v6_apply, val_main_v4_apply,
    val_main_v3_apply, val_main_v2_apply, val_main_v1_apply, val_main_v0_apply, val_main_cst_apply,
    val_main_cst_0_apply, val_main_cst_1_apply]
  simp only [keep, Ideal.logistic_def, Ideal.logistic, Ideal.hostDivf_def, Ideal.addf_def, Ideal.hostUnary_exp_def,
    Ideal.hostNegf_def, Ideal.negf_def, Ideal.ofBits_def, ofBits_one_f32]

/-- The 4096×4096 mask at `(o, k)` is the 128×128 mask at the tile `(o / 32, k / 32)`. -/
theorem mask_at (x3 : FVec Ideal S128x128 .f32) (o k : Fin 4096) :
    val_main_v12 (F := Ideal) x3 (ix2 o k) = keep (x3 (ix2 (tile o) (tile k))) := by
  rw [val_main_v12_apply, val_main_v11_apply, val_main_v10_apply, val_main_v9_apply, mask_tile]
  have ho := o.isLt
  have hk := k.isLt
  congr 2
  funext a
  match a with
  | ⟨0, _⟩ => exact Fin.ext (by show ((o.val * 4096 + k.val) / 4096 * 128 + (o.val * 4096 + k.val) / 32 % 128) / 4096 = o.val / 32; omega)
  | ⟨1, _⟩ => exact Fin.ext (by show ((o.val * 4096 + k.val) / 4096 * 128 + (o.val * 4096 + k.val) / 32 % 128) % 128 = k.val / 32; omega)

/-- The masked weight at `(o, k)` is the specification's pruned weight. -/
theorem weight_at (x1 : FVec Ideal S4096x4096 .f32) (x3 : FVec Ideal S128x128 .f32) (o k : Fin 4096) :
    val_main_v13 (F := Ideal) x1 x3 (ix2 o k) = pruned x1 x3 (ix2 o k) := by
  rw [val_main_v13_apply, mask_at]
  rfl

/-- The reference's result at `(b, s, o)`: the row of `x` against the pruned weight's row `o`, plus the bias at `o`. -/
theorem reference_at (x0 : FVec Ideal S4x2048x4096 .f32) (x1 : FVec Ideal S4096x4096 .f32)
    (x2 : FVec Ideal S4096 .f32) (x3 : FVec Ideal S128x128 .f32) (b : Fin 4) (s : Fin 2048) (o : Fin 4096) :
    val_main_v17 (F := Ideal) x0 x1 x2 x3 (ix3 b s o) = G x0 x1 x2 x3 (ix3 b s o) := by
  rw [val_main_v17_apply, val_main_v14_apply, val_main_v16_apply, val_main_v15_apply]
  have h1 : ∀ k : Fin 4096, lidx_main_v14 (ix3 b s o) k = ix3 b s k := fun k => by
    funext a; match a with | ⟨0, _⟩ => rfl | ⟨1, _⟩ => rfl | ⟨2, _⟩ => rfl
  have h2 : ∀ k : Fin 4096, ridx_main_v14 (ix3 b s o) k = ix2 o k := fun k => by
    funext a; match a with | ⟨0, _⟩ => rfl | ⟨1, _⟩ => rfl
  have h3 : idx_main_v15 (idx_main_v16 (ix3 b s o)) = ix1 o := by
    funext a; match a with | ⟨0, _⟩ => rfl
  simp only [h1, h2, h3, weight_at]
  rfl

/-- The reference's result is the specification `G` of its four arguments. -/
theorem reference_eq (x0 : FVec Ideal S4x2048x4096 .f32) (x1 : FVec Ideal S4096x4096 .f32)
    (x2 : FVec Ideal S4096 .f32) (x3 : FVec Ideal S128x128 .f32) :
    val_main_v17 (F := Ideal) x0 x1 x2 x3 = G x0 x1 x2 x3 := by
  funext i
  have hi : i = ix3 (n0 := 4) (n1 := 2048) (n2 := 4096) (i 0) (i 1) (i 2) := eq_ix3 i
  rw [hi]
  exact reference_at x0 x1 x2 x3 (i 0) (i 1) (i 2)

end Cert.PrunedLinear.RefValue

end
-- ==== Proof.KernelRun.lean ====
/-
  The kernel's run, with its result named.

  From any launch memory with zero counters, every weakly fair execution of the kernel's entry function on the
  TensorCores terminates without a fault, and in every final state each unscoped buffer holds the contents of the last
  boundary of the run (the fold of the host stretches and the two pipelined regions from the launch memory). The result
  buffer is one of those buffers, so it ends at the last boundary's contents; the four argument buffers end as launched.
-/
import proofs.«110593_j48344151883970_2_alg».proof.Proof.Gen.KernelIdeal.Frame

set_option maxRecDepth 16384

noncomputable section

namespace Cert.KernelIdeal.Boundary

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the entry function terminates, nothing faulting, and every final state has the
    result buffer at the last boundary's contents and the four argument buffers as launched. -/
theorem run_value : θ_run defs (onTc (τ := τ) (main (F := F))) ⟨m, fun _ => 0, ρ⟩ (fun r => ∀ c : Dev nD,
      r.2.mem ((c.tc : Thread nD τ).loc main_v5) = W4 m ρ c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v5 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

end Cert.KernelIdeal.Boundary

end
-- ==== Proof.MatmulCases.lean ====
/-
  The second kernel region, one grid point at a time: what the body leaves in the output block's staging buffer.

  The region's grid is (i, j, k) ∈ 4 × 4 × 8 with k innermost; the output block (i, j) stays in its buffer while k runs.
  At k = 0 the body stores zeros, reads them back, and leaves `0 + x·wᵀ` of the point's two input blocks; at 0 < k < 7 it
  leaves `acc + x·wᵀ` of what the point before left; at k = 7 it does the same and then adds the bias row to every row.
  Each is the payload of the body's last covering store, its loads reading whole buffers.
-/
import proofs.«110593_j48344151883970_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.MatmulCases

open Cert.KernelIdeal Cert.KernelIdeal.Gen

variable {F : FTy → Type} [FloatOps F]

theorem hz : (![0, 0] : Fin 2 → Nat) = fun _ => 0 := funext fun a => by fin_cases a <;> rfl

/-- A point with 0 < k < 7: the running block plus the product of the point's input blocks. -/
theorem out_B (c : Dev nD) (i : grid1.Coords) (a3 : Memref sig .tc .vmem S2048x512 .bf16) (h3 : a3.IsWhole)
    (a4 : Memref sig .tc .vmem S1024x512 .bf16) (h4 : a4.IsWhole) (a5 : Memref sig .tc .vmem S1x1024 .f32) (h5 : a5.IsWhole)
    (a6 : Memref sig .tc .vmem S2048x1024 .f32) (h6 : a6.IsWhole) (hc0 : ¬cond1_0 i) (hc1 : ¬cond1_1 i)
    (x0 : Vec F S2048x512 .bf16) (x1 : Vec F S1024x512 .bf16) (x2 : Vec F S1x1024 .f32) (xo : Vec F S2048x1024 .f32) :
    out1_B_3 c i a3 h3 a4 h4 a5 h5 a6 h6 hc0 hc1 x0 x1 x2 xo = k1_pay2 xo x0 x1 := by
  unfold out1_B_3
  rw [View.read_writes_eq_canon _ _ _ (cover1_B_3 c i a3 h3 a4 h4 a5 h5 a6 h6 hc0 hc1 x0 x1 x2 xo)]
  unfold kernelRun1_B
  dsimp only
  rw [View.canon_unit_zero hz]
  simp only [View.readAt_eq_ld, h3.read_unread, h4.read_unread, h6.read_unread, View.ld_unit_zero (S := S2048x1024) hz,
    View.ld_unit_zero (S := S2048x512) hz, View.ld_unit_zero (S := S1024x512) hz]

/-- A point with k = 0: zeros stored and read back, plus the product. -/
theorem out_A (c : Dev nD) (i : grid1.Coords) (a3 : Memref sig .tc .vmem S2048x512 .bf16) (h3 : a3.IsWhole)
    (a4 : Memref sig .tc .vmem S1024x512 .bf16) (h4 : a4.IsWhole) (a5 : Memref sig .tc .vmem S1x1024 .f32) (h5 : a5.IsWhole)
    (a6 : Memref sig .tc .vmem S2048x1024 .f32) (h6 : a6.IsWhole) (hc0 : cond1_0 i) (hc1 : ¬cond1_1 i)
    (x0 : Vec F S2048x512 .bf16) (x1 : Vec F S1024x512 .bf16) (x2 : Vec F S1x1024 .f32) :
    out1_A_3 c i a3 h3 a4 h4 a5 h5 a6 h6 hc0 hc1 x0 x1 x2 = k1_pay2 k1_pay1 x0 x1 := by
  unfold out1_A_3
  rw [View.read_writes_eq_canon _ _ _ (cover1_A_3 c i a3 h3 a4 h4 a5 h5 a6 h6 hc0 hc1 x0 x1 x2)]
  unfold kernelRun1_A
  dsimp only
  sl_unfold_words
  rw [View.canon_cons_unit_zero (S := S2048x1024) hz, View.readCov_unit_zero (S := S2048x1024) _ hz]
  simp only [View.readAt_eq_ld, h3.read_unread, h4.read_unread, View.ld_unit_zero (S := S2048x512) hz,
    View.ld_unit_zero (S := S1024x512) hz]

/-- A point with k = 7: the running block plus the product, then plus the bias row. -/
theorem out_C (c : Dev nD) (i : grid1.Coords) (a3 : Memref sig .tc .vmem S2048x512 .bf16) (h3 : a3.IsWhole)
    (a4 : Memref sig .tc .vmem S1024x512 .bf16) (h4 : a4.IsWhole) (a5 : Memref sig .tc .vmem S1x1024 .f32) (h5 : a5.IsWhole)
    (a6 : Memref sig .tc .vmem S2048x1024 .f32) (h6 : a6.IsWhole) (hc0 : ¬cond1_0 i) (hc1 : cond1_1 i)
    (x0 : Vec F S2048x512 .bf16) (x1 : Vec F S1024x512 .bf16) (x2 : Vec F S1x1024 .f32) (xo : Vec F S2048x1024 .f32) :
    out1_C_3 c i a3 h3 a4 h4 a5 h5 a6 h6 hc0 hc1 x0 x1 x2 xo = k1_pay3 (k1_pay2 xo x0 x1) x2 := by
  unfold out1_C_3
  rw [View.read_writes_eq_canon _ _ _ (cover1_C_3 c i a3 h3 a4 h4 a5 h5 a6 h6 hc0 hc1 x0 x1 x2 xo)]
  unfold kernelRun1_C
  dsimp only
  sl_unfold_words
  rw [View.canon_cons_unit_zero (S := S2048x1024) hz, View.readCov_unit_zero (S := S2048x1024) _ hz]
  simp only [View.readAt_eq_ld, h3.read_unread, h4.read_unread, h5.read_unread, h6.read_unread,
    View.ld_unit_zero (S := S2048x1024) hz, View.ld_unit_zero (S := S2048x512) hz, View.ld_unit_zero (S := S1024x512) hz,
    View.ld_unit_zero (S := S1x1024) hz]

end Cert.KernelIdeal.MatmulCases

end
-- ==== Proof.MatmulPayload.lean ====
/-
  The second region's arithmetic, read at an index, on the extended reals.

  The zero block is `0` everywhere; the accumulating step at (p, q) is `acc (p, q) + ∑ₗ x (p, l) · w (q, l)` over the
  512 contracted columns (the matrix unit multiplies the rows of `x` with the ROWS of `w`: both operands contract
  their second axis; its accumulator operand is the zero constant); the closing step adds the bias row's entry `q`.
-/
import proofs.«110593_j48344151883970_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)

namespace Cert.KernelIdeal.MatmulPayload

open Cert.KernelIdeal Cert.KernelIdeal.Gen

open Idealize.ShloMosaic.ValueIdx

/-- The matrix unit's dimension record: [2048,512] against [1024,512], contracting the second axis of both. -/
abbrev DD : DotDims S2048x512 S1024x512 S2048x1024 := dot_S2048x512_S1024x512_S2048x1024_1_1_0_0_n_n

theorem lhs0 (j : S2048x1024.Idx) (q : DD.contr.Idx) : (DD.lhsIdx j q 0).val = (j 0).val := by
  unfold DotDims.lhsIdx
  rw [dif_neg (show ¬(0 : Fin S2048x512.rank) ∈ DD.lhsBatch by decide), dif_pos (show (0 : Fin S2048x512.rank) ∈ DD.lhsNonContracting by decide)]
  rfl
theorem lhs1 (j : S2048x1024.Idx) (q : DD.contr.Idx) : (DD.lhsIdx j q 1).val = (q ⟨0, by decide⟩).val :=
  DD.lhsIdx_val_of_single rfl j q
theorem rhs0 (j : S2048x1024.Idx) (q : DD.contr.Idx) : (DD.rhsIdx j q 0).val = (j 1).val := by
  unfold DotDims.rhsIdx
  rw [dif_neg (show ¬(0 : Fin S1024x512.rank) ∈ DD.rhsBatch by decide), dif_pos (show (0 : Fin S1024x512.rank) ∈ DD.rhsNonContracting by decide)]
  rfl
theorem rhs1 (j : S2048x1024.Idx) (q : DD.contr.Idx) : (DD.rhsIdx j q 1).val = (q ⟨0, by decide⟩).val :=
  DD.rhsIdx_val_of_single rfl j q

/-- The product into a zero accumulator at (p, q): rows p of `x` and q of `w`, multiplied entry by entry and summed. -/
theorem matmul_zero_apply (x : FVec Ideal S2048x512 .bf16) (w : FVec Ideal S1024x512 .bf16) (p : Fin 2048) (q : Fin 1024) :
    FloatOps.matmul DD none x w (constant (F := Ideal) S2048x1024 .f32 0x00000000#32) (ix2 p q)
      = ∑ l : Fin 512, x (ix2 p l) * w (ix2 q l) := by
  rw [Ideal.matmul_constant_zero_apply, ← Equiv.sum_comp (ValueIdx.contrEquiv1 DD 512 rfl rfl).symm]
  refine Finset.sum_congr rfl fun k _ => ?_
  have hk := ValueIdx.contrEquiv1_symm_val DD 512 rfl rfl k
  have el : DD.lhsIdx (ix2 p q) ((ValueIdx.contrEquiv1 DD 512 rfl rfl).symm k) = ix2 p k := funext fun a => Fin.ext (by
    match a with
    | ⟨0, _⟩ => exact lhs0 _ _
    | ⟨1, _⟩ => exact (lhs1 _ _).trans hk)
  have er : DD.rhsIdx (ix2 p q) ((ValueIdx.contrEquiv1 DD 512 rfl rfl).symm k) = ix2 q k := funext fun a => Fin.ext (by
    match a with
    | ⟨0, _⟩ => exact rhs0 _ _
    | ⟨1, _⟩ => exact (rhs1 _ _).trans hk)
  rw [el, er]

/-- The zero block. -/
theorem pay1_apply (j : S2048x1024.Idx) : k1_pay1 (F := Ideal) j = 0 := by
  show Ideal.ofBits .f32 0x00000000#32 = 0
  exact Ideal.ofBits_zero_f32

/-- The accumulating step at (p, q). -/
theorem pay2_apply (acc : Vec Ideal S2048x1024 .f32) (x : Vec Ideal S2048x512 .bf16) (w : Vec Ideal S1024x512 .bf16)
    (p : Fin 2048) (q : Fin 1024) :
    k1_pay2 (F := Ideal) acc x w (ix2 p q) = acc (ix2 p q) + ∑ l : Fin 512, x (ix2 p l) * w (ix2 q l) := by
  unfold k1_pay2
  rw [shapeCast_self, shapeCast_self, shapeCast_self]
  show acc (ix2 p q) + FloatOps.matmul DD none x w (constant (F := Ideal) S2048x1024 .f32 0x00000000#32) (ix2 p q) = _
  rw [matmul_zero_apply]

/-- The closing step at (p, q): the bias row's entry q is added to every row. -/
theorem pay3_apply (a : Vec Ideal S2048x1024 .f32) (b : Vec Ideal S1x1024 .f32) (p : Fin 2048) (q : Fin 1024) :
    k1_pay3 (F := Ideal) a b (ix2 p q) = a (ix2 p q) + b (ix2 0 q) := by
  unfold k1_pay3
  rw [shapeCast_self, shapeCast_self]
  show a (ix2 p q) + broadcastTo S2048x1024 b broadcasts_S1x1024_S2048x1024 (ix2 p q) = _
  rw [broadcastTo_apply b broadcasts_S1x1024_S2048x1024 (ix2 p q) (ix2 0 q) (fun d => by
    match d with
    | ⟨0, _⟩ => show (0 : Nat) = if (1 : Nat) = 1 then 0 else _; rw [if_pos rfl]
    | ⟨1, _⟩ => show q.val = if (1024 : Nat) = 1 then 0 else q.val; rw [if_neg (by decide)])]

end Cert.KernelIdeal.MatmulPayload

end
-- ==== Proof.MatmulValue.lean ====
/-
  The second kernel region as a whole: after it, its output array holds, at (r, n),
  `∑ₖ X (r, k) · W (n, k) + b (0, n)` of the three arrays it reads (X : [8192,4096], W : [4096,4096], b : [1,4096]).

  Point t = 32·i + 8·j + k works on rows 2048·i … of X, rows 1024·j … of W and columns 512·k … of both. The output
  block (i, j) stays in its staging buffer while k runs 0 … 7, and after point t holds the sum of the first k + 1
  runs of 512 products (by induction on the point: the first point of a block starts from zero, every later one adds its
  run to what the point before left); the last point of a block also adds the bias entry, and only that point writes the
  block back. Eight runs of 512 are the whole sum over 4096, and the sixteen blocks tile the array.
-/
import proofs.«110593_j48344151883970_2_alg».proof.Proof.Gen.KernelIdeal.Frame
import proofs.«110593_j48344151883970_2_alg».proof.Proof.Spec
import proofs.«110593_j48344151883970_2_alg».proof.Proof.MatmulCases
import proofs.«110593_j48344151883970_2_alg».proof.Proof.MatmulPayload
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)

namespace Cert.KernelIdeal.MatmulValue

open Cert.KernelIdeal Cert.KernelIdeal.Gen

open Idealize.ShloMosaic.ValueIdx Cert.KernelIdeal.MatmulCases Cert.KernelIdeal.MatmulPayload

variable (V : (c : Dev nD) → (b : Ref sig .tc) → Buf (Elt Ideal) ((c : Thread nD τ).loc b))

/-- An entry of a matrix named by natural-number coordinates (zero outside the matrix: never read there). -/
def at2 {R C : ℕ} (A : (⟨2, ![R, C]⟩ : Shape).Idx → EReal) (r c : ℕ) : EReal :=
  if h : r < R ∧ c < C then A (ix2 ⟨r, h.1⟩ ⟨c, h.2⟩) else 0

theorem at2_fin {R C : ℕ} (A : (⟨2, ![R, C]⟩ : Shape).Idx → EReal) (r : Fin R) (c : Fin C) :
    at2 A r.val c.val = A (ix2 r c) := by
  unfold at2; rw [dif_pos ⟨r.isLt, c.isLt⟩]

/-- The block indices of the four windows at point t = 32·i + 8·j + k, decided over the 128 points. -/
theorem idx_facts : ∀ t : Fin cfg1.N,
    win1_0.index t (0 : Fin 2) = t.val / 32 ∧ win1_0.index t (1 : Fin 2) = t.val % 8
    ∧ win1_1.index t (0 : Fin 2) = t.val / 8 % 4 ∧ win1_1.index t (1 : Fin 2) = t.val % 8
    ∧ win1_2.index t (0 : Fin 2) = 0 ∧ win1_2.index t (1 : Fin 2) = t.val / 8 % 4
    ∧ win1_3.index t (0 : Fin 2) = t.val / 32 ∧ win1_3.index t (1 : Fin 2) = t.val / 8 % 4 :=
  (by decide +kernel : ∀ t : Fin grid1.N, _)

/-- The X block of point t, entry (p, l): X at (2048·i + p, 512·k + l). -/
theorem xblk_apply (c : Dev nD) (t : Fin cfg1.N) (p : Fin 2048) (l : Fin 512) :
    (iblk1 V c 0 t : Vec Ideal S2048x512 .bf16) (ix2 p l)
      = at2 (R := 8192) (C := 4096) (V c main_v1) (2048 * (t.val / 32) + p.val) (512 * (t.val % 8) + l.val) := by
  have hN : t.val < 128 := lt_of_lt_of_eq t.isLt (show cfg1.N = 128 from N_1)
  obtain ⟨e0, e1, -⟩ := idx_facts t
  unfold at2
  rw [dif_pos ⟨by have := p.isLt; omega, by have := l.isLt; omega⟩]
  unfold iblk1
  rw [View.read_apply]
  show V c main_v1 _ = V c main_v1 _
  congr 1
  funext a
  apply Fin.ext
  match a with
  | ⟨0, _⟩ => show win1_0.index t (0 : Fin 2) * 2048 + 1 * p.val = 2048 * (t.val / 32) + p.val; rw [e0]; omega
  | ⟨1, _⟩ => show win1_0.index t (1 : Fin 2) * 512 + 1 * l.val = 512 * (t.val % 8) + l.val; rw [e1]; omega

/-- The W block of point t, entry (q, l): W at (1024·j + q, 512·k + l). -/
theorem wblk_apply (c : Dev nD) (t : Fin cfg1.N) (q : Fin 1024) (l : Fin 512) :
    (iblk1 V c 1 t : Vec Ideal S1024x512 .bf16) (ix2 q l)
      = at2 (R := 4096) (C := 4096) (V c main_v3) (1024 * (t.val / 8 % 4) + q.val) (512 * (t.val % 8) + l.val) := by
  have hN : t.val < 128 := lt_of_lt_of_eq t.isLt (show cfg1.N = 128 from N_1)
  obtain ⟨-, -, e2, e3, -⟩ := idx_facts t
  unfold at2
  rw [dif_pos ⟨by have := q.isLt; omega, by have := l.isLt; omega⟩]
  unfold iblk1
  rw [View.read_apply]
  show V c main_v3 _ = V c main_v3 _
  congr 1
  funext a
  apply Fin.ext
  match a with
  | ⟨0, _⟩ => show win1_1.index t (0 : Fin 2) * 1024 + 1 * q.val = 1024 * (t.val / 8 % 4) + q.val; rw [e2]; omega
  | ⟨1, _⟩ => show win1_1.index t (1 : Fin 2) * 512 + 1 * l.val = 512 * (t.val % 8) + l.val; rw [e3]; omega

/-- The bias block of point t, entry (0, q): b at (0, 1024·j + q). -/
theorem bblk_apply (c : Dev nD) (t : Fin cfg1.N) (q : Fin 1024) :
    (iblk1 V c 2 t : Vec Ideal S1x1024 .f32) (ix2 0 q)
      = at2 (R := 1) (C := 4096) (V c main_v2) 0 (1024 * (t.val / 8 % 4) + q.val) := by
  have hN : t.val < 128 := lt_of_lt_of_eq t.isLt (show cfg1.N = 128 from N_1)
  obtain ⟨-, -, -, -, e4, e5, -⟩ := idx_facts t
  unfold at2
  rw [dif_pos ⟨by omega, by have := q.isLt; omega⟩]
  unfold iblk1
  rw [View.read_apply]
  show V c main_v2 _ = V c main_v2 _
  congr 1
  funext a
  apply Fin.ext
  match a with
  | ⟨0, _⟩ => show win1_2.index t (0 : Fin 2) * 1 + 1 * 0 = 0; rw [e4]
  | ⟨1, _⟩ => show win1_2.index t (1 : Fin 2) * 1024 + 1 * q.val = 1024 * (t.val / 8 % 4) + q.val; rw [e5]; omega

/-- Run d of 512 products of row (2048·bi + p) of X with row (1024·bj + q) of W. -/
def term (c : Dev nD) (bi bj d : ℕ) (p : Fin 2048) (q : Fin 1024) : EReal :=
  ∑ l : Fin 512, at2 (R := 8192) (C := 4096) (V c main_v1) (2048 * bi + p.val) (512 * d + l.val)
    * at2 (R := 4096) (C := 4096) (V c main_v3) (1024 * bj + q.val) (512 * d + l.val)

/-- The first K runs. -/
def S (c : Dev nD) (bi bj K : ℕ) (p : Fin 2048) (q : Fin 1024) : EReal :=
  ∑ d ∈ Finset.range K, term V c bi bj d p q

theorem S_succ (c : Dev nD) (bi bj K : ℕ) (p : Fin 2048) (q : Fin 1024) :
    S V c bi bj (K + 1) p q = S V c bi bj K p q + term V c bi bj K p q := Finset.sum_range_succ _ _

theorem S_one (c : Dev nD) (bi bj : ℕ) (p : Fin 2048) (q : Fin 1024) :
    S V c bi bj 1 p q = term V c bi bj 0 p q := Finset.sum_range_one _

/-- Row p of an X block against row q of a W block: 512 products, summed. -/
def dot512 (x : Vec Ideal S2048x512 .bf16) (w : Vec Ideal S1024x512 .bf16) (p : Fin 2048) (q : Fin 1024) : EReal :=
  ∑ l : Fin 512, x (ix2 p l) * w (ix2 q l)

/-- The accumulating step at (p, q), with the product named. -/
theorem pay2_dot (acc : Vec Ideal S2048x1024 .f32) (x : Vec Ideal S2048x512 .bf16) (w : Vec Ideal S1024x512 .bf16)
    (p : Fin 2048) (q : Fin 1024) :
    k1_pay2 (F := Ideal) acc x w (ix2 p q) = acc (ix2 p q) + dot512 x w p q := pay2_apply acc x w p q

/-- The product of point t's two input blocks at (p, q) is run k of the rows' products. -/
theorem prod_blk (c : Dev nD) (t : Fin cfg1.N) (p : Fin 2048) (q : Fin 1024) :
    dot512 (iblk1 V c 0 t) (iblk1 V c 1 t) p q = term V c (t.val / 32) (t.val / 8 % 4) (t.val % 8) p q := by
  unfold dot512 term
  exact Finset.sum_congr rfl fun l _ => by rw [xblk_apply V c t p l, wblk_apply V c t q l]

/-- A point with k = 0 leaves its own run. -/
theorem step_A (c : Dev nD) (t : Fin cfg1.N) (h0 : t.val % 8 = 0) (h7 : ¬t.val % 8 = 7) (p : Fin 2048) (q : Fin 1024) :
    outsAt1 (F := Ideal) V c t.val t.isLt (ix2 p q) = term V c (t.val / 32) (t.val / 8 % 4) (t.val % 8) p q := by
  rw [outsAt1_A V c t h0 h7]
  refine (congrFun (out_A (F := Ideal) c (grid1.coords t) (ms1_0 t) (hs1_0 t) (ms1_1 t) (hs1_1 t) (ms1_2 t) (hs1_2 t) (ms1_3 t) (hs1_3 t)
    ((hcond1_0 t).mpr h0) (fun h => h7 ((hcond1_1 t).mp h)) (iblk1 V c 0 t) (iblk1 V c 1 t) (iblk1 V c 2 t)) (ix2 p q)).trans ?_
  rw [pay2_dot (k1_pay1 (F := Ideal)) (iblk1 V c 0 t) (iblk1 V c 1 t) p q, pay1_apply, zero_add]
  exact prod_blk V c t p q

/-- A point with 0 < k < 7 adds its run to what the point before left. -/
theorem step_B (c : Dev nD) (t : Fin cfg1.N) (h0 : ¬t.val % 8 = 0) (h7 : ¬t.val % 8 = 7) (p : Fin 2048) (q : Fin 1024) :
    outsAt1 (F := Ideal) V c t.val t.isLt (ix2 p q)
      = outsAt1 (F := Ideal) V c (t.val - 1) (Nat.lt_of_le_of_lt (Nat.sub_le _ _) t.isLt) (ix2 p q)
        + term V c (t.val / 32) (t.val / 8 % 4) (t.val % 8) p q := by
  rw [outsAt1_B V c t h0 h7]
  refine (congrFun (out_B (F := Ideal) c (grid1.coords t) (ms1_0 t) (hs1_0 t) (ms1_1 t) (hs1_1 t) (ms1_2 t) (hs1_2 t) (ms1_3 t) (hs1_3 t)
    (fun h => h0 ((hcond1_0 t).mp h)) (fun h => h7 ((hcond1_1 t).mp h)) (iblk1 V c 0 t) (iblk1 V c 1 t) (iblk1 V c 2 t)
    (outsAt1 V c (t.val - 1) (Nat.lt_of_le_of_lt (Nat.sub_le _ _) t.isLt))) (ix2 p q)).trans ?_
  rw [pay2_dot (outsAt1 (F := Ideal) V c (t.val - 1) (Nat.lt_of_le_of_lt (Nat.sub_le _ _) t.isLt)) (iblk1 V c 0 t) (iblk1 V c 1 t) p q]
  exact congrArg _ (prod_blk V c t p q)

/-- The point with k = 7 does the same and then adds the bias entry. -/
theorem step_C (c : Dev nD) (t : Fin cfg1.N) (h0 : ¬t.val % 8 = 0) (h7 : t.val % 8 = 7) (p : Fin 2048) (q : Fin 1024) :
    outsAt1 (F := Ideal) V c t.val t.isLt (ix2 p q)
      = (outsAt1 (F := Ideal) V c (t.val - 1) (Nat.lt_of_le_of_lt (Nat.sub_le _ _) t.isLt) (ix2 p q)
          + term V c (t.val / 32) (t.val / 8 % 4) (t.val % 8) p q)
        + at2 (R := 1) (C := 4096) (V c main_v2) 0 (1024 * (t.val / 8 % 4) + q.val) := by
  rw [outsAt1_C V c t h0 h7]
  refine (congrFun (out_C (F := Ideal) c (grid1.coords t) (ms1_0 t) (hs1_0 t) (ms1_1 t) (hs1_1 t) (ms1_2 t) (hs1_2 t) (ms1_3 t) (hs1_3 t)
    (fun h => h0 ((hcond1_0 t).mp h)) ((hcond1_1 t).mpr h7) (iblk1 V c 0 t) (iblk1 V c 1 t) (iblk1 V c 2 t)
    (outsAt1 V c (t.val - 1) (Nat.lt_of_le_of_lt (Nat.sub_le _ _) t.isLt))) (ix2 p q)).trans ?_
  rw [pay3_apply (k1_pay2 (F := Ideal) (outsAt1 (F := Ideal) V c (t.val - 1) (Nat.lt_of_le_of_lt (Nat.sub_le _ _) t.isLt)) (iblk1 V c 0 t) (iblk1 V c 1 t)) (iblk1 V c 2 t) p q,
    pay2_dot (outsAt1 (F := Ideal) V c (t.val - 1) (Nat.lt_of_le_of_lt (Nat.sub_le _ _) t.isLt)) (iblk1 V c 0 t) (iblk1 V c 1 t) p q,
    prod_blk V c t p q, bblk_apply V c t q]

/-- THE RUNNING SUM: after a point with k < 7 the output block's buffer holds the first k + 1 runs. -/
theorem acc_eq (c : Dev nD) : ∀ (n : ℕ) (h : n < cfg1.N), ¬n % 8 = 7 → ∀ (p : Fin 2048) (q : Fin 1024),
    outsAt1 (F := Ideal) V c n h (ix2 p q) = S V c (n / 32) (n / 8 % 4) (n % 8 + 1) p q
  | 0, h, h7, p, q => by
    refine (step_A V c ⟨0, h⟩ rfl h7 p q).trans ?_
    show term V c (0 / 32) (0 / 8 % 4) (0 % 8) p q = S V c (0 / 32) (0 / 8 % 4) (0 % 8 + 1) p q
    exact (S_one V c _ _ p q).symm
  | n + 1, h, h7, p, q => by
    have hN : n + 1 < 128 := lt_of_lt_of_eq h (show cfg1.N = 128 from N_1)
    by_cases h0 : (n + 1) % 8 = 0
    · refine (step_A V c ⟨n + 1, h⟩ h0 h7 p q).trans ?_
      show term V c ((n + 1) / 32) ((n + 1) / 8 % 4) ((n + 1) % 8) p q = S V c ((n + 1) / 32) ((n + 1) / 8 % 4) ((n + 1) % 8 + 1) p q
      rw [h0]
      exact (S_one V c _ _ p q).symm
    · refine (step_B V c ⟨n + 1, h⟩ h0 h7 p q).trans ?_
      have ih := acc_eq c n (Nat.lt_of_succ_lt h) (by omega) p q
      show outsAt1 (F := Ideal) V c n _ (ix2 p q) + term V c ((n + 1) / 32) ((n + 1) / 8 % 4) ((n + 1) % 8) p q
        = S V c ((n + 1) / 32) ((n + 1) / 8 % 4) ((n + 1) % 8 + 1) p q
      have e1 : (n + 1) / 32 = n / 32 := by omega
      have e2 : (n + 1) / 8 % 4 = n / 8 % 4 := by omega
      have e3 : (n + 1) % 8 = n % 8 + 1 := by omega
      rw [e1, e2, e3, S_succ, ih]

/-- After the last point of a block: all eight runs, plus the bias entry. -/
theorem last_eq (c : Dev nD) (t : Fin cfg1.N) (h7 : t.val % 8 = 7) (p : Fin 2048) (q : Fin 1024) :
    outsAt1 (F := Ideal) V c t.val t.isLt (ix2 p q)
      = S V c (t.val / 32) (t.val / 8 % 4) 8 p q + at2 (R := 1) (C := 4096) (V c main_v2) 0 (1024 * (t.val / 8 % 4) + q.val) := by
  have hN : t.val < 128 := lt_of_lt_of_eq t.isLt (show cfg1.N = 128 from N_1)
  rw [step_C V c t (by omega) h7 p q, acc_eq V c (t.val - 1) (Nat.lt_of_le_of_lt (Nat.sub_le _ _) t.isLt) (by omega) p q]
  have e1 : (t.val - 1) / 32 = t.val / 32 := by omega
  have e2 : (t.val - 1) / 8 % 4 = t.val / 8 % 4 := by omega
  have e3 : (t.val - 1) % 8 + 1 = 7 := by omega
  rw [e1, e2, e3, h7, ← S_succ]

/-- Row r of X against row n of W: 4096 products, summed. -/
def rowdot (A : S8192x4096.Idx → EReal) (B : S4096x4096.Idx → EReal) (r : Fin 8192) (n : Fin 4096) : EReal :=
  ∑ k : Fin 4096, A (ix2 r k) * B (ix2 n k)

/-- What the region's output array holds in the end: row r of X against row n of W, plus the bias entry n. -/
def result (c : Dev nD) : Buf (Elt Ideal) ((c : Thread nD τ).loc main_v4) :=
  fun (i : S8192x4096.Idx) => rowdot (V c main_v1) (V c main_v3) (i 0) (i 1) + at2 (R := 1) (C := 4096) (V c main_v2) 0 (i 1).val

/-- Eight runs of 512 are the whole row product. -/
theorem S_eight (c : Dev nD) (r : Fin 8192) (n : Fin 4096) (bi bj : ℕ) (p : Fin 2048) (q : Fin 1024)
    (hr : r.val = 2048 * bi + p.val) (hn : n.val = 1024 * bj + q.val) :
    S V c bi bj 8 p q = rowdot (V c main_v1) (V c main_v3) r n := by
  unfold S term rowdot
  rw [← hr, ← hn]
  refine (Cert.PrunedLinear.sum_runs (fun k => at2 (R := 8192) (C := 4096) (V c main_v1) r.val k * at2 (R := 4096) (C := 4096) (V c main_v3) n.val k)).trans ?_
  exact Finset.sum_congr rfl fun k _ => by
    show at2 (R := 8192) (C := 4096) (V c main_v1) r.val k.val * at2 (R := 4096) (C := 4096) (V c main_v3) n.val k.val = _
    rw [at2_fin, at2_fin]

/-- WHAT A FLUSHING POINT WRITES BACK is its block of `result`. -/
theorem flushed_eq (c : Dev nD) (t : Fin cfg1.N) (hf : (cfg1.win 3).flush t = true) :
    (dat1 V c).flushed 3 t = ((cfg1.win 3).blk t).view.read (Elt Ideal) (result V c) := by
  have h7 : t.val % 8 = 7 := (flush1_3 t).mp hf
  have hN : t.val < 128 := lt_of_lt_of_eq t.isLt (show cfg1.N = 128 from N_1)
  obtain ⟨-, -, -, -, -, -, e6, e7⟩ := idx_facts t
  show (cfg1.win 3).cut (grid1.coords t) ((dat1 V c).after 3 t) = _
  rw [after1_3]
  refine funext fun (y : S2048x1024.Idx) => ?_
  obtain ⟨p, q, rfl⟩ : ∃ (p : Fin 2048) (q : Fin 1024), y = ix2 p q := ⟨y 0, y 1, eq_ix2 y⟩
  show outsAt1 (F := Ideal) V c t.val t.isLt (ix2 p q) = result V c (((cfg1.win 3).blk t).view.emb (ix2 p q))
  have hemb : ((cfg1.win 3).blk t).view.emb (ix2 p q)
      = (ix2 (⟨2048 * (t.val / 32) + p.val, by have := p.isLt; omega⟩ : Fin 8192) (⟨1024 * (t.val / 8 % 4) + q.val, by have := q.isLt; omega⟩ : Fin 4096) : S8192x4096.Idx) := by
    funext a
    apply Fin.ext
    match a with
    | ⟨0, _⟩ => show win1_3.index t (0 : Fin 2) * 2048 + 1 * p.val = 2048 * (t.val / 32) + p.val; rw [e6]; omega
    | ⟨1, _⟩ => show win1_3.index t (1 : Fin 2) * 1024 + 1 * q.val = 1024 * (t.val / 8 % 4) + q.val; rw [e7]; omega
  rw [hemb, last_eq V c t h7 p q]
  show _ = rowdot (V c main_v1) (V c main_v3) ⟨2048 * (t.val / 32) + p.val, by have := p.isLt; omega⟩ ⟨1024 * (t.val / 8 % 4) + q.val, by have := q.isLt; omega⟩
    + at2 (R := 1) (C := 4096) (V c main_v2) 0 (1024 * (t.val / 8 % 4) + q.val)
  rw [S_eight V c ⟨2048 * (t.val / 32) + p.val, by have := p.isLt; omega⟩ ⟨1024 * (t.val / 8 % 4) + q.val, by have := q.isLt; omega⟩ (t.val / 32) (t.val / 8 % 4) p q rfl rfl]

/-- An index of the array is in point t's output block iff each coordinate is in the block's range on its axis. -/
theorem mem_blk (t : Fin cfg1.N) (i : S8192x4096.Idx) :
    i ∈ ((cfg1.win 3).blk t).view.set ↔ ∀ a : Fin 2, win1_3.index t a * S2048x1024.size a ≤ (i a).val ∧ (i a).val < win1_3.index t a * S2048x1024.size a + S2048x1024.size a := by
  show i ∈ ((View.whole main_v4).slice (win1_3.rect t)).set ↔ _
  rw [View.set_slice_whole, Rect.mem_set_unit]
  exact Iff.rfl

/-- THE REGION'S RESULT: the sixteen flushed blocks tile the array, so it ends at `result`. -/
theorem final (c : Dev nD) : (dat1 V c).arrAt 3 cfg1.N = result V c :=
  (dat1 V c).arrAt_eq_of_cover 3 (result V c) (flushed_eq V c) fun i => by
    have h0 : (i 0).val < 8192 := (i 0).isLt
    have h1 : (i 1).val < 4096 := (i 1).isLt
    have hlt : 32 * ((i 0).val / 2048) + 8 * ((i 1).val / 1024) + 7 < cfg1.N := by rw [show cfg1.N = 128 from N_1]; omega
    refine ⟨⟨32 * ((i 0).val / 2048) + 8 * ((i 1).val / 1024) + 7, hlt⟩, (flush1_3 _).mpr (by show (32 * ((i 0).val / 2048) + 8 * ((i 1).val / 1024) + 7) % 8 = 7; omega), ?_⟩
    obtain ⟨-, -, -, -, -, -, e6, e7⟩ := idx_facts ⟨32 * ((i 0).val / 2048) + 8 * ((i 1).val / 1024) + 7, hlt⟩
    rw [mem_blk]
    intro a
    match a with
    | ⟨0, _⟩ =>
      show win1_3.index ⟨32 * ((i 0).val / 2048) + 8 * ((i 1).val / 1024) + 7, hlt⟩ (0 : Fin 2) * 2048 ≤ (i 0).val ∧ (i 0).val < win1_3.index ⟨32 * ((i 0).val / 2048) + 8 * ((i 1).val / 1024) + 7, hlt⟩ (0 : Fin 2) * 2048 + 2048
      rw [e6]; dsimp only; omega
    | ⟨1, _⟩ =>
      show win1_3.index ⟨32 * ((i 0).val / 2048) + 8 * ((i 1).val / 1024) + 7, hlt⟩ (1 : Fin 2) * 1024 ≤ (i 1).val ∧ (i 1).val < win1_3.index ⟨32 * ((i 0).val / 2048) + 8 * ((i 1).val / 1024) + 7, hlt⟩ (1 : Fin 2) * 1024 + 1024
      rw [e7]; dsimp only; omega

end Cert.KernelIdeal.MatmulValue

end
-- ==== Proof.PruneValue.lean ====
/-
  The first kernel region leaves the pruned weight in its output array.

  The region runs over eight points. Point `t` holds rows 512·t … 512·t + 511 of the [4096, 4096] weight (every column),
  the whole [128, 128] score array, and the matching block of the output. Its body loads the sixteen score rows
  16·t … 16·t + 15 — the row tiles of the block's 512 rows —, turns each score `s` into the test `sigmoid s > τ` as a
  float (`1` or `0`), spreads that [16, 128] mask over 32×32 tiles to [512, 4096], and stores weight · mask. On the
  extended reals the roundings to bf16 are the identity, so entry (p, q) of the block stored at point `t` is
  weight (512·t + p, q) · keep (score (16·t + p / 32, q / 32)); and 16·t + p / 32 = (512·t + p) / 32, so this is block `t`
  of the pruned weight. Every point writes its block back and the eight blocks tile the array (row `r` lies in block
  `r / 512`), so the array ends holding the pruned weight.
-/
import proofs.«110593_j48344151883970_2_alg».proof.Proof.Gen.KernelIdeal.Frame
import proofs.«110593_j48344151883970_2_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.PruneValue

open Cert.KernelIdeal Cert.KernelIdeal.Gen Cert.PrunedLinear

variable {F : FTy → Type} [FloatOps F]

theorem hz : (![0, 0] : Fin 2 → Nat) = fun _ => 0 := funext fun a => by fin_cases a <;> rfl

/-- What the body leaves in the output's staging buffer: its one covering store's payload, of the sixteen score rows
    the offset names and of the whole weight block. -/
theorem out_A (c : Dev nD) (i : grid0.Coords) (a1 : Memref sig .tc .vmem S512x4096 .f32) (h1 : a1.IsWhole)
    (a2 : Memref sig .tc .vmem S128x128 .f32) (h2 : a2.IsWhole) (a3 : Memref sig .tc .vmem S512x4096 .bf16) (h3 : a3.IsWhole)
    (x0 : Vec F S512x4096 .f32) (x1 : Vec F S128x128 .f32) :
    out0_A_2 c i a1 h1 a2 h2 a3 h3 x0 x1
      = k0_pay1 (View.ld x1 (Rect.unit (s := S128x128) (k0_off1 i) S16x128.size (k0_off1_inb i))) x0 := by
  unfold out0_A_2
  rw [View.read_writes_eq_canon _ _ _ (cover0_A_2 c i a1 h1 a2 h2 a3 h3 x0 x1)]
  unfold kernelRun0_A
  dsimp only
  rw [View.canon_unit_zero hz]
  simp only [View.readAt_eq_ld, h1.read_unread, h2.read_unread, View.ld_unit_zero (S := S512x4096) hz]

/-- A [16, 128] array spread over 32×32 tiles — reshaped to [16, 1, 128, 1], broadcast to [16, 32, 128, 32], reshaped to
    [512, 4096] — reads at (p, q) its entry (p / 32, q / 32): (p, q) is position (p / 32, p % 32, q / 32, q % 32) of the
    rank-four array, whose two inner axes the broadcast ignores. -/
theorem spread_apply {α : Type} (m : S16x128.Idx → α)
    (hA : S16x128.ShapeCasts S16x1x128x1) (hB : S16x1x128x1.ShapeCasts S16x1x128x1)
    (hC : S16x1x128x1.Broadcasts S16x32x128x32) (hD : S16x32x128x32.ShapeCasts S512x4096)
    (p : Fin 512) (q : Fin 4096) (a : Fin 16) (b : Fin 128) (ha : a.val = p.val / 32) (hb : b.val = q.val / 32) :
    shapeCast S512x4096 (broadcastTo S16x32x128x32 (shapeCast S16x1x128x1 (shapeCast S16x1x128x1 m hA) hB) hC) hD (ix2 p q)
      = m (ix2 a b) := by
  have hp := p.isLt
  have hq := q.isLt
  have ha' := a.isLt
  have hb' := b.isLt
  refine (shapeCast_apply _ hD (ix2 p q)
    (ix4 (⟨p.val / 32, by omega⟩ : Fin 16) (⟨p.val % 32, by omega⟩ : Fin 32) (⟨q.val / 32, by omega⟩ : Fin 128) (⟨q.val % 32, by omega⟩ : Fin 32)) ?_).trans ?_
  · rw [Shape.rowMajor_val_four, Shape.rowMajor_val_two]
    show ((p.val / 32 * 32 + p.val % 32) * 128 + q.val / 32) * 32 + q.val % 32 = p.val * 4096 + q.val
    omega
  refine (broadcastTo_apply _ hC _ (ix4 a (0 : Fin 1) b (0 : Fin 1)) ?_).trans ?_
  · intro d
    match d with
    | ⟨0, _⟩ => exact ha
    | ⟨1, _⟩ => rfl
    | ⟨2, _⟩ => exact hb
    | ⟨3, _⟩ => rfl
  rw [shapeCast_self]
  refine shapeCast_apply _ hA _ (ix2 a b) ?_
  rw [Shape.rowMajor_val_four, Shape.rowMajor_val_two]
  show a.val * 128 + b.val = ((a.val * 1 + 0) * 128 + b.val) * 1 + 0
  omega

/-- The body's arithmetic at entry (p, q) of the block: the weight there times the threshold test of score
    (p / 32, q / 32) of the sixteen rows loaded (the roundings to bf16 are the identity on the extended reals). -/
theorem pay_apply (v3 : Vec Ideal S16x128 .f32) (v14 : Vec Ideal S512x4096 .f32) (p : Fin 512) (q : Fin 4096)
    (a : Fin 16) (b : Fin 128) (ha : a.val = p.val / 32) (hb : b.val = q.val / 32) :
    k0_pay1 (F := Ideal) v3 v14 (ix2 p q) = (v14 (ix2 p q) : EReal) * keep (v3 (ix2 a b)) := by
  unfold k0_pay1
  rw [mulf_apply, truncf_apply]
  refine congrArg (fun z : EReal => (v14 (ix2 p q) : EReal) * z) ?_
  refine (spread_apply _ _ _ _ _ p q a b ha hb).trans ?_
  rw [truncf_apply, sitofp_apply, extui_apply, cmpf_apply, broadcast_apply]
  exact sitofp_setWidth_bit _

/-- The pruned weight at an entry of rows 512·T … 512·T + 511, from a block `x0` holding those rows of the weight and a
    block `x1` holding the scores: the body's arithmetic on `x0` and on rows 16·T … 16·T + 15 of `x1`. The row tile of
    entry (512·T + p, q) is 16·T + p / 32, which is row p / 32 of the sixteen loaded. -/
theorem point_value (w : FVec Ideal SW .f32) (sc : FVec Ideal SS .f32)
    (x0 : Vec Ideal S512x4096 .f32) (x1 : Vec Ideal S128x128 .f32) (T : Nat) (off : Fin 2 → Nat) (hoff : off = ![16 * T, 0])
    (inb : ∀ a, off a + S16x128.size a ≤ S128x128.size a)
    (hx0 : ∀ (y : S512x4096.Idx) (k : S4096x4096.Idx), (k 0).val = 512 * T + (y 0).val → (k 1).val = (y 1).val → x0 y = w k)
    (hx1 : ∀ y : S128x128.Idx, x1 y = sc y)
    (y : S512x4096.Idx) (k : S4096x4096.Idx) (hk0 : (k 0).val = 512 * T + (y 0).val) (hk1 : (k 1).val = (y 1).val) :
    k0_pay1 (F := Ideal) (View.ld x1 (Rect.unit (s := S128x128) off S16x128.size inb)) x0 y = pruned w sc k := by
  subst hoff
  obtain ⟨p, q, rfl⟩ : ∃ (p : Fin 512) (q : Fin 4096), y = ix2 p q := ⟨y 0, y 1, eq_ix2 y⟩
  have hp := p.isLt
  have hq := q.isLt
  have hk0' : (k 0).val = 512 * T + p.val := hk0
  have hk1' : (k 1).val = q.val := hk1
  refine (pay_apply _ x0 p q (⟨p.val / 32, by omega⟩ : Fin 16) (⟨q.val / 32, by omega⟩ : Fin 128) rfl rfl).trans ?_
  unfold pruned
  rw [hx0 (ix2 p q) k hk0 hk1]
  refine congrArg (fun z : EReal => (w k : EReal) * keep z) ?_
  show x1 _ = sc _
  rw [hx1]
  refine congrArg sc (funext fun d => Fin.ext ?_)
  match d with
  | ⟨0, _⟩ => show 16 * T + 1 * (p.val / 32) = (k 0).val / 32; omega
  | ⟨1, _⟩ => show 0 + 1 * (q.val / 32) = (k 1).val / 32; omega

section Region

variable (V : (c : Dev nD) → (b : Ref sig .tc) → Buf (Elt Ideal) ((c : Thread nD τ).loc b))

/-- The index maps, decided over the grid: at point `t` the weight's and the output's block is (t, 0), the scores' (0, 0),
    and the score rows the body loads start at row 16·t. -/
theorem idx_facts : ∀ t : Fin cfg0.N, win0_0.index t (0 : Fin 2) = t.val ∧ win0_0.index t (1 : Fin 2) = 0
    ∧ win0_2.index t (0 : Fin 2) = t.val ∧ win0_2.index t (1 : Fin 2) = 0
    ∧ win0_1.index t (0 : Fin 2) = 0 ∧ win0_1.index t (1 : Fin 2) = 0
    ∧ k0_off1 (grid0.coords t) = ![16 * t.val, 0] :=
  (by decide +kernel : ∀ t : Fin grid0.N, _)

/-- The weight's block at point `t` is rows 512·t … 512·t + 511 of the weight, every column. -/
theorem weight_block_apply (c : Dev nD) (t : Fin cfg0.N) (y : S512x4096.Idx) (k : S4096x4096.Idx)
    (hk0 : (k 0).val = 512 * t.val + (y 0).val) (hk1 : (k 1).val = (y 1).val) :
    (iblk0 V c 0 t : Vec Ideal S512x4096 .f32) y = (V c main_arg1 : S4096x4096.Idx → Ideal .f32) k := by
  obtain ⟨e0, e1, -⟩ := idx_facts t
  unfold iblk0
  rw [View.read_apply]
  show V c main_arg1 _ = V c main_arg1 _
  congr 1
  funext a
  apply Fin.ext
  match a with
  | ⟨0, _⟩ => show win0_0.index t 0 * 512 + 1 * (y 0).val = (k 0).val; rw [e0, hk0]; omega
  | ⟨1, _⟩ => show win0_0.index t 1 * 4096 + 1 * (y 1).val = (k 1).val; rw [e1, hk1]; omega

/-- The scores' block at every point is the whole score array. -/
theorem scores_block_apply (c : Dev nD) (t : Fin cfg0.N) (y : S128x128.Idx) :
    (iblk0 V c 1 t : Vec Ideal S128x128 .f32) y = (V c main_arg3 : S128x128.Idx → Ideal .f32) y := by
  obtain ⟨-, -, -, -, e4, e5, -⟩ := idx_facts t
  unfold iblk0
  rw [View.read_apply]
  show V c main_arg3 _ = V c main_arg3 _
  congr 1
  funext a
  apply Fin.ext
  match a with
  | ⟨0, _⟩ => show win0_1.index t 0 * 128 + 1 * (y 0).val = (y 0).val; rw [e4]; omega
  | ⟨1, _⟩ => show win0_1.index t 1 * 128 + 1 * (y 1).val = (y 1).val; rw [e5]; omega

/-- What point `t` writes back is block (t, 0) of the pruned weight. -/
theorem flushed_eq (c : Dev nD) (t : Fin cfg0.N) :
    (dat0 (F := Ideal) V c).flushed 2 t
      = ((cfg0.win 2).blk t).view.read (Elt Ideal) (pruned (V c main_arg1) (V c main_arg3)) := by
  show (cfg0.win 2).cut (grid0.coords t) ((dat0 (F := Ideal) V c).after 2 t) = _
  rw [after0_2]
  unfold outsAt0
  rw [out_A]
  obtain ⟨-, -, e2, e3, -, -, e6⟩ := idx_facts t
  funext y
  rw [View.read_apply]
  refine point_value (V c main_arg1) (V c main_arg3) (iblk0 V c 0 t) (iblk0 V c 1 t) t.val (k0_off1 (grid0.coords t)) e6
    (k0_off1_inb (grid0.coords t)) (weight_block_apply V c t) (scores_block_apply V c t) y (((cfg0.win 2).blk t).view.emb y) ?_ ?_
  · show win0_2.index t 0 * 512 + 1 * (y 0).val = 512 * t.val + (y 0).val
    rw [e2]; omega
  · show win0_2.index t 1 * 4096 + 1 * (y 1).val = (y 1).val
    rw [e3]; omega

/-- An entry of the output array is in point `t`'s block iff each coordinate is in the block's range on its axis. -/
theorem mem_blk (t : Fin cfg0.N) (i : S4096x4096.Idx) :
    i ∈ ((cfg0.win 2).blk t).view.set ↔ ∀ a : Fin 2, win0_2.index t a * S512x4096.size a ≤ (i a).val
      ∧ (i a).val < win0_2.index t a * S512x4096.size a + S512x4096.size a := by
  show i ∈ ((View.whole main_v3).slice (win0_2.rect t)).set ↔ _
  rw [View.set_slice_whole, Rect.mem_set_unit]
  exact Iff.rfl

/-- Row r of the output lies in the block of point r / 512, and every point writes its block back. -/
theorem cover (i : S4096x4096.Idx) :
    ∃ t : Fin cfg0.N, (cfg0.win 2).flush t = true ∧ i ∈ ((cfg0.win 2).blk t).view.set := by
  have hN : cfg0.N = 8 := N_0
  have h0 : (i 0).val < 4096 := (i 0).isLt
  have h1 : (i 1).val < 4096 := (i 1).isLt
  obtain ⟨-, -, e2, e3, -⟩ := idx_facts ⟨(i 0).val / 512, by omega⟩
  refine ⟨⟨(i 0).val / 512, by omega⟩, flush0_2 _, ?_⟩
  rw [mem_blk]
  intro a
  match a with
  | ⟨0, _⟩ =>
    show win0_2.index ⟨(i 0).val / 512, _⟩ (0 : Fin 2) * 512 ≤ (i 0).val
      ∧ (i 0).val < win0_2.index ⟨(i 0).val / 512, _⟩ (0 : Fin 2) * 512 + 512
    rw [e2]; dsimp only; omega
  | ⟨1, _⟩ =>
    show win0_2.index ⟨(i 0).val / 512, _⟩ (1 : Fin 2) * 4096 ≤ (i 1).val
      ∧ (i 1).val < win0_2.index ⟨(i 0).val / 512, _⟩ (1 : Fin 2) * 4096 + 4096
    rw [e3]; omega

/-- After the region its output array holds the pruned weight: entry (n, k) is weight (n, k) times the threshold test
    of score (n / 32, k / 32). -/
theorem final (c : Dev nD) : ∀ idx : S4096x4096.Idx,
    (dat0 (F := Ideal) V c).arrAt 2 cfg0.N idx = pruned (V c main_arg1) (V c main_arg3) idx :=
  fun idx => congrFun ((dat0 (F := Ideal) V c).arrAt_eq_of_cover 2 (pruned (V c main_arg1) (V c main_arg3))
    (fun t _ => flushed_eq V c t) cover) idx

end Region

end Cert.KernelIdeal.PruneValue

end
-- ==== Proof.Boundary.lean ====
/-
  The buffer contents at the boundaries of the kernel's run, read at an index.

  The run is: three host operations (flatten `x` from 4×2048×4096 to 8192×4096, narrow it to bf16 — the identity on
  the extended reals —, and view the bias as a 1×4096 row), the pruning region, the product region, and one host
  operation that unflattens the 8192×4096 product to 4×2048×4096. Row `r` of the flattened `x` is `x (r / 2048, r % 2048, ·)`,
  and entry `(b, s, o)` of the result is entry `(b · 2048 + s, o)` of the product. The weight and the score table are
  written by no host operation, so the first region finds them as launched; each region leaves its output array at
  what its write-backs fold to.
-/
import proofs.«110593_j48344151883970_2_alg».proof.Proof.Gen.KernelIdeal.Frame
import Idealize.ShloMosaic.Lib.Pipeline.Value
import Idealize.ShloMosaic.Lib.ValueIdx

set_option maxRecDepth 16384

noncomputable section

namespace Cert.KernelIdeal.Boundary

open Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window BodyObligation cellOf)

section AnyF
variable {F : FTy → Type} [FloatOps F]
variable (m : (ℓ : Loc nD τ sig) → Buf (Elt F) ℓ) (ρ : Dev nD → PrngReg)

/-- No host operation before the first region writes the weight: the region finds it as launched. -/
theorem W1_main_arg1 (c : Dev nD) : W1 m ρ c (Proc.devRef .tc main_arg1) = m ((c : Thread nD τ).loc main_arg1) :=
  calc W1 m ρ c (Proc.devRef .tc main_arg1)
    _ = W0 m ρ c (Proc.devRef .tc main_arg1) := StableHlo.after_of_forall_not_mem (b := Proc.devRef .tc main_arg1) _ _ (List.forall_iff_forall_mem.mp (by
          simp only [hostOps0, List.Forall, StableHlo.unary_writes, StableHlo.reshape_writes, Finset.mem_singleton]
          repeat' apply And.intro
          all_goals exact StableHlo.devRef_ne_of_ne (by decide)))
    _ = m ((c : Thread nD τ).loc main_arg1) := rfl

/-- Nor the score table. -/
theorem W1_main_arg3 (c : Dev nD) : W1 m ρ c (Proc.devRef .tc main_arg3) = m ((c : Thread nD τ).loc main_arg3) :=
  calc W1 m ρ c (Proc.devRef .tc main_arg3)
    _ = W0 m ρ c (Proc.devRef .tc main_arg3) := StableHlo.after_of_forall_not_mem (b := Proc.devRef .tc main_arg3) _ _ (List.forall_iff_forall_mem.mp (by
          simp only [hostOps0, List.Forall, StableHlo.unary_writes, StableHlo.reshape_writes, Finset.mem_singleton]
          repeat' apply And.intro
          all_goals exact StableHlo.devRef_ne_of_ne (by decide)))
    _ = m ((c : Thread nD τ).loc main_arg3) := rfl

/-- At the first region's exit the pruned weight's buffer holds what the region's write-backs fold to. -/
theorem W2_main_v3 (c : Dev nD) : W2 m ρ c (Proc.devRef .tc main_v3) = (dat0 (V1 m ρ) c).arrAt 2 cfg0.N :=
  W2_arr m ρ c 2

/-- At the second region's exit the product's buffer holds what the region's write-backs fold to. -/
theorem W3_main_v4 (c : Dev nD) : W3 m ρ c (Proc.devRef .tc main_v4) = (dat1 (V2 m ρ) c).arrAt 3 cfg1.N :=
  W3_arr m ρ c 3

end AnyF

section AtIdeal
variable (m : (ℓ : Loc nD τ sig) → Buf (Elt Ideal) ℓ) (ρ : Dev nD → PrngReg)

/-- The second region's left operand: row `r` of the flattened, narrowed `x` is `x (r / 2048, r % 2048, ·)` — the
    first region does not touch it, narrowing is the identity on the extended reals, and the flattening is row-major:
    `(r / 2048 · 2048 + r % 2048) · 4096 + k = r · 4096 + k`. -/
theorem W2_main_v1 (c : Dev nD) (r : Fin 8192) (k : Fin 4096) :
    (W2 m ρ c (Proc.devRef .tc main_v1) : S8192x4096.Idx → EReal) (ix2 r k)
      = (m ((c : Thread nD τ).loc main_arg0) : S4x2048x4096.Idx → EReal)
          (ix3 (⟨r.val / 2048, by have := r.isLt; omega⟩ : Fin 4) (⟨r.val % 2048, Nat.mod_lt _ (by decide)⟩ : Fin 2048) k) := by
  rw [W2_of_ne m ρ c main_v1 (by decide)]
  have e : (W1 m ρ c (Proc.devRef .tc main_v1) : S8192x4096.Idx → EReal)
      = (truncf .bf16 (shapeCast S8192x4096 (m ((c : Thread nD τ).loc main_arg0) : FVec Ideal S4x2048x4096 .f32)
          shapeCasts_S4x2048x4096_S8192x4096) bitsLt_bf16_f32 : FVec Ideal S8192x4096 .bf16) := by
    show StableHlo.after hostOps0 _ (Proc.devRef .tc main_v1) = _
    after_results
    rfl
  rw [e]
  have hk : (S4x2048x4096.rowMajor (ix3 (⟨r.val / 2048, by have := r.isLt; omega⟩ : Fin 4)
      (⟨r.val % 2048, Nat.mod_lt _ (by decide)⟩ : Fin 2048) k)).val = (S8192x4096.rowMajor (ix2 r k)).val := by
    rewrite [Shape.rowMajor_val_three, Shape.rowMajor_val_two]
    have := r.isLt
    show (r.val / 2048 * 2048 + r.val % 2048) * 4096 + k.val = r.val * 4096 + k.val
    omega
  exact shapeCast_apply (s := S4x2048x4096) (t := S8192x4096) _ shapeCasts_S4x2048x4096_S8192x4096 _ _ hk

/-- The bias as the second region finds it: the 1×4096 row's entry `(0, n)` is the bias at `n`. -/
theorem W2_main_v2 (c : Dev nD) (n : Fin 4096) :
    (W2 m ρ c (Proc.devRef .tc main_v2) : S1x4096.Idx → EReal) (ix2 (0 : Fin 1) n)
      = (m ((c : Thread nD τ).loc main_arg2) : S4096.Idx → EReal) (ix1 n) := by
  rw [W2_of_ne m ρ c main_v2 (by decide)]
  have e : (W1 m ρ c (Proc.devRef .tc main_v2) : S1x4096.Idx → EReal)
      = shapeCast S1x4096 (m ((c : Thread nD τ).loc main_arg2) : FVec Ideal S4096 .f32) shapeCasts_S4096_S1x4096 := by
    show StableHlo.after hostOps0 _ (Proc.devRef .tc main_v2) = _
    after_results
    rfl
  rw [e]
  have hk : (S4096.rowMajor (ix1 n)).val = (S1x4096.rowMajor (ix2 (0 : Fin 1) n)).val := by
    rewrite [Shape.rowMajor_val_one, Shape.rowMajor_val_two]
    show n.val = 0 * 4096 + n.val
    omega
  exact shapeCast_apply (s := S4096) (t := S1x4096) _ shapeCasts_S4096_S1x4096 _ _ hk

/-- The result: entry `(b, s, o)` of the unflattened product is entry `(b · 2048 + s, o)` of the product. -/
theorem W4_main_v5 (c : Dev nD) (b : Fin 4) (s : Fin 2048) (o : Fin 4096) :
    (W4 m ρ c (Proc.devRef .tc main_v5) : S4x2048x4096.Idx → EReal) (ix3 b s o)
      = (W3 m ρ c (Proc.devRef .tc main_v4) : S8192x4096.Idx → EReal)
          (ix2 (⟨b.val * 2048 + s.val, by have := b.isLt; have := s.isLt; omega⟩ : Fin 8192) o) := by
  have e : (W4 m ρ c (Proc.devRef .tc main_v5) : S4x2048x4096.Idx → EReal)
      = shapeCast S4x2048x4096 (W3 m ρ c (Proc.devRef .tc main_v4) : FVec Ideal S8192x4096 .f32) shapeCasts_S8192x4096_S4x2048x4096 := by
    show StableHlo.after hostOps2 _ (Proc.devRef .tc main_v5) = _
    after_results
    rfl
  rw [e]
  have hk : (S8192x4096.rowMajor (ix2 (⟨b.val * 2048 + s.val, by have := b.isLt; have := s.isLt; omega⟩ : Fin 8192) o)).val
      = (S4x2048x4096.rowMajor (ix3 b s o)).val := by
    rewrite [Shape.rowMajor_val_three, Shape.rowMajor_val_two]
    rfl
  exact shapeCast_apply (s := S8192x4096) (t := S4x2048x4096) _ shapeCasts_S8192x4096_S4x2048x4096 _ _ hk

end AtIdeal

end Cert.KernelIdeal.Boundary

end
-- ==== Proof.KernelValue.lean ====
/-
  The kernel's result, as a function of the four launch arrays.

  The last boundary's result buffer is the second region's output array regrouped from [8192, 4096] to [4, 2048, 4096]:
  entry (b, s, o) is entry (2048·b + s, o). That array holds `∑ₖ X (r, k) · W (o, k) + bias' (0, o)` of the arrays the
  region reads: X is the input regrouped to [8192, 4096] (a rounding to a shorter format in between is the identity on the
  extended reals), so X (2048·b + s, k) is x (b, s, k); W is the first region's output array, the pruned weight of the
  launch weight and scores; bias' is the bias as one row. Together: the specification.
-/
import proofs.«110593_j48344151883970_2_alg».proof.Proof.Gen.KernelIdeal.Frame
import proofs.«110593_j48344151883970_2_alg».proof.Proof.Spec
import proofs.«110593_j48344151883970_2_alg».proof.Proof.MatmulValue
import proofs.«110593_j48344151883970_2_alg».proof.Proof.PruneValue
import proofs.«110593_j48344151883970_2_alg».proof.Proof.Boundary
import Idealize.ShloMosaic.Lib.ValueIdx

noncomputable section

open Idealize.ShloMosaic Idealize.ShloMosaic.TcCoe Idealize.SL.Sem
open Idealize.ShloMosaic.Pipeline (Dat)

namespace Cert.KernelIdeal.Result

open Cert.KernelIdeal Cert.KernelIdeal.Gen

open Idealize.ShloMosaic.ValueIdx Cert.PrunedLinear Cert.KernelIdeal.MatmulValue Cert.KernelIdeal.Boundary

variable (m : (ℓ : Loc nD τ sig) → Buf (Elt Ideal) ℓ) (ρ : Dev nD → PrngReg)

/-- The weight the second region reads is the pruned weight of the launch weight and scores. -/
theorem weight_eq (c : Dev nD) (n k : Fin 4096) :
    (W2 m ρ c (Proc.devRef .tc main_v3) : S4096x4096.Idx → EReal) (ix2 n k)
      = pruned (m ((c : Thread nD τ).loc main_arg1)) (m ((c : Thread nD τ).loc main_arg3)) (ix2 n k) := by
  rw [W2_main_v3, Cert.KernelIdeal.PruneValue.final (V1 m ρ) c (ix2 n k)]
  show pruned (W1 m ρ c (Proc.devRef .tc main_arg1)) (W1 m ρ c (Proc.devRef .tc main_arg3)) (ix2 n k) = _
  rw [W1_main_arg1, W1_main_arg3]

/-- The input the second region reads, at row 2048·b + s, is the launch input at (b, s). -/
theorem input_eq (c : Dev nD) (b : Fin 4) (s : Fin 2048) (k : Fin 4096) (hR : b.val * 2048 + s.val < 8192) :
    (W2 m ρ c (Proc.devRef .tc main_v1) : S8192x4096.Idx → EReal) (ix2 (⟨b.val * 2048 + s.val, hR⟩ : Fin 8192) k)
      = (m ((c : Thread nD τ).loc main_arg0) : S4x2048x4096.Idx → EReal) (ix3 b s k) := by
  have hb := b.isLt
  have hs := s.isLt
  refine (W2_main_v1 m ρ c ⟨b.val * 2048 + s.val, hR⟩ k).trans (congrArg _ (funext fun a => Fin.ext ?_))
  match a with
  | ⟨0, _⟩ => show (b.val * 2048 + s.val) / 2048 = b.val; omega
  | ⟨1, _⟩ => show (b.val * 2048 + s.val) % 2048 = s.val; omega
  | ⟨2, _⟩ => rfl

/-- The specification at (b, s, o), spelt out. -/
theorem G_apply (x : FVec Ideal SX .f32) (w : FVec Ideal SW .f32) (bias : FVec Ideal SB .f32) (sc : FVec Ideal SS .f32)
    (b : Fin 4) (s : Fin 2048) (o : Fin 4096) :
    G x w bias sc (ix3 b s o) = (∑ k : Fin 4096, x (ix3 b s k) * pruned w sc (ix2 o k)) + bias (ix1 o) := rfl

/-- The result buffer at (b, s, o) is the specification there. -/
theorem kernel_at (c : Dev nD) (b : Fin 4) (s : Fin 2048) (o : Fin 4096) :
    (W4 m ρ c (Proc.devRef .tc main_v5) : S4x2048x4096.Idx → EReal) (ix3 b s o)
      = G (m ((c : Thread nD τ).loc main_arg0)) (m ((c : Thread nD τ).loc main_arg1))
          (m ((c : Thread nD τ).loc main_arg2)) (m ((c : Thread nD τ).loc main_arg3)) (ix3 b s o) := by
  have hb := b.isLt
  have hs := s.isLt
  have hR : b.val * 2048 + s.val < 8192 := by omega
  rw [W4_main_v5, W3_main_v4, Cert.KernelIdeal.MatmulValue.final (V2 m ρ) c]
  rw [G_apply]
  show rowdot (W2 m ρ c (Proc.devRef .tc main_v1)) (W2 m ρ c (Proc.devRef .tc main_v3)) ⟨b.val * 2048 + s.val, hR⟩ o
      + at2 (R := 1) (C := 4096) (W2 m ρ c (Proc.devRef .tc main_v2)) 0 o.val = _
  have hbias : at2 (R := 1) (C := 4096) (W2 m ρ c (Proc.devRef .tc main_v2)) 0 o.val
      = (m ((c : Thread nD τ).loc main_arg2) : S4096.Idx → EReal) (ix1 o) :=
    (at2_fin (R := 1) (C := 4096) (W2 m ρ c (Proc.devRef .tc main_v2)) (0 : Fin 1) o).trans (W2_main_v2 m ρ c o)
  refine congrArg₂ (fun u v : EReal => u + v) ?_ hbias
  unfold rowdot
  exact Finset.sum_congr rfl fun k _ =>
    congrArg₂ (fun u v : EReal => u * v) (input_eq m ρ c b s k hR) (weight_eq m ρ c o k)

/-- The result buffer is the specification of the four launch arrays. -/
theorem kernel_result (c : Dev nD) :
    W4 m ρ c (Proc.devRef .tc main_v5)
      = G (m ((c : Thread nD τ).loc main_arg0)) (m ((c : Thread nD τ).loc main_arg1))
          (m ((c : Thread nD τ).loc main_arg2)) (m ((c : Thread nD τ).loc main_arg3)) := by
  funext i
  have hi : i = ix3 (n0 := 4) (n1 := 2048) (n2 := 4096) (i 0) (i 1) (i 2) := eq_ix3 i
  rw [hi]
  exact kernel_at m ρ c (i 0) (i 1) (i 2)

end Cert.KernelIdeal.Result

end
-- ==== Proof.lean ====
/-
  A linear layer with a tile-pruned weight, as two pipelined kernel regions, against its textbook form.

  The kernel first prunes the [4096, 4096] weight — every 32×32 tile is kept or zeroed by the test `sigmoid score > τ`
  of the tile's score — and then multiplies the [8192, 4096] input rows with the pruned weight's rows in blocks,
  accumulating eight runs of 512 products per output entry and adding the bias after the last run. The reference
  builds the same mask by two repeat-and-flatten steps, multiplies it into the weight, contracts the input with the
  result in one sum over 4096 and adds the bias. On the extended reals both are
  `∑ₖ x (b, s, k) · (w (o, k) · keep (score (o / 32, k / 32))) + bias o`: the two sigmoids are one function, the two
  spellings of "the test bit as a float" agree, roundings to a shorter format are the identity, and eight runs of 512
  terms are the whole sum because addition of extended reals is commutative and associative (no finiteness is used).
  The three frames are the generated runs; the idealization rewrote nothing.
-/
import proofs.«110593_j48344151883970_2_alg».proof.Defs
import proofs.«110593_j48344151883970_2_alg».proof.Proof.Gen.Kernel
import proofs.«110593_j48344151883970_2_alg».proof.Proof.Gen.Kernel.Skeleton
import proofs.«110593_j48344151883970_2_alg».proof.Proof.Gen.Kernel.Launch
import proofs.«110593_j48344151883970_2_alg».proof.Proof.Gen.Kernel.Points
import proofs.«110593_j48344151883970_2_alg».proof.Proof.Gen.Kernel.Frame
import proofs.«110593_j48344151883970_2_alg».proof.Proof.Gen.KernelIdeal
import proofs.«110593_j48344151883970_2_alg».proof.Proof.Gen.KernelIdeal.Skeleton
import proofs.«110593_j48344151883970_2_alg».proof.Proof.Gen.KernelIdeal.Launch
import proofs.«110593_j48344151883970_2_alg».proof.Proof.Gen.KernelIdeal.Points
import proofs.«110593_j48344151883970_2_alg».proof.Proof.Gen.KernelIdeal.Frame
import proofs.«110593_j48344151883970_2_alg».proof.Proof.Gen.ReferenceIdeal
import proofs.«110593_j48344151883970_2_alg».proof.Proof.Gen.ReferenceIdeal.Run
import proofs.«110593_j48344151883970_2_alg».proof.Proof.Gen.ReferenceIdeal.Read
import proofs.«110593_j48344151883970_2_alg».proof.Proof.Gen.Pre_finite_inputs
import proofs.«110593_j48344151883970_2_alg».proof.Proof.Spec
import proofs.«110593_j48344151883970_2_alg».proof.Proof.RefValue
import proofs.«110593_j48344151883970_2_alg».proof.Proof.KernelRun
import proofs.«110593_j48344151883970_2_alg».proof.Proof.KernelValue
import Idealize.ShloMosaic.Adequacy
import Idealize.ShloMosaic.Init

noncomputable section

namespace Cert.Proof

open Idealize.ShloMosaic Idealize.SL.Sem

/-- The kernel as printed runs, and leaves its arguments as launched. -/
theorem frame_kernel : Cert.frame_Kernel := fun m ρ _ => Cert.Kernel.Gen.frame m ρ

/-- So does its reading on the extended reals. -/
theorem frame_kernel_ideal : Cert.frame_KernelIdeal := fun m ρ _ => Cert.KernelIdeal.Gen.frame m ρ

/-- The reference is a straight line of host operations: its run, with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the four arguments both programs end with the result array at
    `∑ₖ x · pruned weight + bias` of those arguments. -/
theorem algebraic : Cert.algebraic_KernelIdeal_ReferenceIdeal := by
  intro m ρ m' ρ' _ hagree
  refine ⟨fun c => Cert.PrunedLinear.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun _ h c => ⟨(h c).1.trans (Cert.KernelIdeal.Result.kernel_result m ρ c), (h c).2⟩)
      (Cert.KernelIdeal.Boundary.run_value (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v17_eq, Cert.PrunedLinear.RefValue.reference_eq,
      (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
